-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000 : S_.BroadcastsInDim S1000000 (![] : Fin 0 → Fin S1000000.rank)
  reducesTo_S1000000_S_d0 : S1000000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32x64 .f32) (main_v33 : IVec S_ 1) : IVec S_ 1 :=
  let main_v34 : FVec F S32x64 .f32 := Host.absf main_arg8
  let main_cst_12 : FVec F S_ .f32 := constant S_ .f32 0x7F800000#32
  let main_v35 : FVec F S32x64 .f32 := broadcastInDim S32x64 ![] bcast_S_S32x64 main_cst_12
  let main_v36 : IVec S32x64 1 := cmpf .olt main_v34 main_v35
  let main_c_13 : IVec S_ 1 := constantI S_ 1 1#1
  let main_v37 : IVec S_ 1 := (fun x v => Host.reduce IntOp.andi x v reducesTo_S32x64_S_d0_1 h_S_) main_v36 main_c_13
  let main_v38 : IVec S_ 1 := andi main_v33 main_v37
  main_v38

def fn_part1 {F : FTy → Type} [FloatOps F] (main_arg5 : FVec F S64x64 .f32) (main_arg6 : FVec F S32x64 .f32) (main_arg7 : FVec F S32 .f32) (main_arg8 : FVec F S32x64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1000000 32) (main_arg2 : FVec F S1000000 .f32) (main_arg3 : FVec F S64x64 .f32) (main_arg4 : FVec F S64 .f32) (main_arg5 : FVec F S64x64 .f32) (main_arg6 : FVec F S32x64 .f32) (main_arg7 : FVec F S32 .f32) (main_arg8 : FVec F S32x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000 .f32 := Host.absf main_arg2
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S2000x64 : Shape := ⟨2, ![2000, 64]⟩
abbrev S2000x1 : Shape := ⟨2, ![2000, 1]⟩
abbrev S1x32 : Shape := ⟨2, ![1, 32]⟩
abbrev S100000x32 : Shape := ⟨2, ![100000, 32]⟩
abbrev S2000x32 : Shape := ⟨2, ![2000, 32]⟩

abbrev nBuf : Space → Nat
  | .hbm => 56
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .f32⟩
  | .hbm, ⟨14, _⟩ => ⟨S1000000, .f32⟩
  | .hbm, ⟨15, _⟩ => ⟨S_, .f32⟩
  | .hbm, ⟨16, _⟩ => ⟨S100000, .f32⟩
  | .hbm, ⟨17, _⟩ => ⟨S1000000x1, .i32⟩
  | .hbm, ⟨18, _⟩ => ⟨S100000, .f32⟩
  | .hbm, ⟨19, _⟩ => ⟨S100000x1, .f32⟩
  | .hbm, ⟨20, _⟩ => ⟨S_, .i32⟩
  | .hbm, ⟨21, _⟩ => ⟨S1000000, .i32⟩
  | .hbm, ⟨22, _⟩ => ⟨S1000000, .i1⟩
  | .hbm, ⟨23, _⟩ => ⟨S_, .i32⟩
  | .hbm, ⟨24, _⟩ => ⟨S1000000, .i32⟩
  | .hbm, ⟨25, _⟩ => ⟨S1000000, .i32⟩
  | .hbm, ⟨26, _⟩ => ⟨S1000000, .i32⟩
  | .hbm, ⟨27, _⟩ => ⟨S1000000x1, .i32⟩
  | .hbm, ⟨28, _⟩ => ⟨S1000000x64, .f32⟩
  | .hbm, ⟨29, _⟩ => ⟨S1000000x1, .f32⟩
  | .hbm, ⟨30, _⟩ => ⟨S1000000x64, .f32⟩
  | .hbm, ⟨31, _⟩ => ⟨S1000000x64, .f32⟩
  | .hbm, ⟨32, _⟩ => ⟨S_, .f32⟩
  | .hbm, ⟨33, _⟩ => ⟨S100000x64, .f32⟩
  | .hbm, ⟨34, _⟩ => ⟨S1000000x1, .i32⟩
  | .hbm, ⟨35, _⟩ => ⟨S100000x64, .f32⟩
  | .hbm, ⟨36, _⟩ => ⟨S1x64, .f32⟩
  | .hbm, ⟨37, _⟩ => ⟨S100000x64, .f32⟩
  | .hbm, ⟨38, _⟩ => ⟨S_, .i32⟩
  | .hbm, ⟨39, _⟩ => ⟨S1000000, .i32⟩
  | .hbm, ⟨40, _⟩ => ⟨S1000000, .i1⟩
  | .hbm, ⟨41, _⟩ => ⟨S_, .i32⟩
  | .hbm, ⟨42, _⟩ => ⟨S1000000, .i32⟩
  | .hbm, ⟨43, _⟩ => ⟨S1000000, .i32⟩
  | .hbm, ⟨44, _⟩ => ⟨S1000000, .i32⟩
  | .hbm, ⟨45, _⟩ => ⟨S1000000x1, .i32⟩
  | .hbm, ⟨46, _⟩ => ⟨S1000000x64, .f32⟩
  | .hbm, ⟨47, _⟩ => ⟨S1000000x1, .f32⟩
  | .hbm, ⟨48, _⟩ => ⟨S1000000x64, .f32⟩
  | .hbm, ⟨49, _⟩ => ⟨S1000000x64, .f32⟩
  | .hbm, ⟨50, _⟩ => ⟨S_, .f32⟩
  | .hbm, ⟨51, _⟩ => ⟨S100000x64, .f32⟩
  | .hbm, ⟨52, _⟩ => ⟨S1000000x1, .i32⟩
  | .hbm, ⟨53, _⟩ => ⟨S100000x64, .f32⟩
  | .hbm, ⟨54, _⟩ => ⟨S1x32, .f32⟩
  | .hbm, ⟨55, _⟩ => ⟨S100000x32, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x64, .f32⟩
  | .local _ .vmem, ⟨7, _⟩ => ⟨S1x64, .f32⟩
  | .local _ .vmem, ⟨8, _⟩ => ⟨S64x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S2000x1, .f32⟩
  | .local _ .vmem, ⟨14, _⟩ => ⟨S2000x1, .f32⟩
  | .local _ .vmem, ⟨15, _⟩ => ⟨S2000x64, .f32⟩
  | .local _ .vmem, ⟨16, _⟩ => ⟨S2000x64, .f32⟩
  | .local _ .vmem, ⟨17, _⟩ => ⟨S32x64, .f32⟩
  | .local _ .vmem, ⟨18, _⟩ => ⟨S1x32, .f32⟩
  | .local _ .vmem, ⟨19, _⟩ => ⟨S32x64, .f32⟩
  | .local _ .vmem, ⟨20, _⟩ => ⟨S2000x32, .f32⟩
  | .local _ .vmem, ⟨21, _⟩ => ⟨S2000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  inb_S64x64_S64x64_0_0 : ∀ a, (![0, 0] : Fin 2 → Nat) a + S64x64.size a ≤ S64x64.size a
  h_S64x64 : 0 < S64x64.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  shapeCasts_S32_S1x32 : S32.ShapeCasts S1x32
  inb_S32x64_S32x64_0_0 : ∀ a, (![0, 0] : Fin 2 → Nat) a + S32x64.size a ≤ S32x64.size a
  h_S32x64 : 0 < S32x64.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S2000x32_S2000x32_0_0 : ∀ a, (![0, 0] : Fin 2 → Nat) a + S2000x32.size a ≤ S2000x32.size a
  h_S2000x32 : 0 < S2000x32.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S2000x64_S64x64_S2000x64_1_1_0_0_n_n_wf : DotDims.WF S2000x64 S64x64 S2000x64 [1] [1] [0] [0] [] []
  dot_S2000x64_S32x64_S2000x32_1_1_0_0_n_n_wf : DotDims.WF S2000x64 S32x64 S2000x32 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S100000x64.size a
  hwx0_6 : ∀ i : grid0.Coords, EltTy.bits .f32 = 32 ∨ (Rect.block (s := S100000x64) S2000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S100000x64.size a
  hwx1_0 : ∀ i : grid1.Coords, EltTy.bits .f32 = 32 ∨ (Rect.block (s := S100000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x64.size a ≤ S32x64.size a
  hwx1_5 : ∀ i : grid1.Coords, EltTy.bits .f32 = 32 ∨ (Rect.block (s := S32x64) S32x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x32.size a ≤ S100000x32.size a
  hwx1_6 : ∀ i : grid1.Coords, EltTy.bits .f32 = 32 ∨ (Rect.block (s := S100000x32) S2000x32.size (cc1_transform_6 i) (hinb1_6 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S2000x64_S64x64_S2000x64_1_1_0_0_n_n : DotDims S2000x64 S64x64 S2000x64 where
  lhsContracting := [1]
  rhsContracting := [1]
  lhsNonContracting := [0]
  rhsNonContracting := [0]
  lhsBatch := []
  rhsBatch := []
  wf := dot_S2000x64_S64x64_S2000x64_1_1_0_0_n_n_wf
def dot_S2000x64_S32x64_S2000x32_1_1_0_0_n_n : DotDims S2000x64 S32x64 S2000x32 where
  lhsContracting := [1]
  rhsContracting := [1]
  lhsNonContracting := [0]
  rhsNonContracting := [0]
  lhsBatch := []
  rhsBatch := []
  wf := dot_S2000x64_S32x64_S2000x32_1_1_0_0_n_n_wf

abbrev win0_0 : Pipeline.Window sig grid0 :=
  Pipeline.Window.ofSpec (Memref.whole main_v21) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S2000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v23) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v37) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S32x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S2000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S1000000 : Shape := ⟨1, ![1000000]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x1000000 : Shape := ⟨2, ![1, 1000000]⟩
abbrev S_ : Shape := ⟨0, ![]⟩
abbrev S1000000x1 : Shape := ⟨2, ![1000000, 1]⟩
abbrev S1000000x64 : Shape := ⟨2, ![1000000, 64]⟩
abbrev S100000 : Shape := ⟨1, ![100000]⟩
abbrev S100000x1 : Shape := ⟨2, ![100000, 1]⟩
abbrev S1x64 : Shape := ⟨2, ![1, 64]⟩
abbrev S64x32 : Shape := ⟨2, ![64, 32]⟩
abbrev S100000x32 : Shape := ⟨2, ![100000, 32]⟩
abbrev S1x32 : Shape := ⟨2, ![1, 32]⟩

abbrev nBuf : Space → Nat
  | .hbm => 97
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S1000000, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S32x64, .f32⟩
  | .hbm, ⟨7, _⟩ => ⟨S32, .f32⟩
  | .hbm, ⟨8, _⟩ => ⟨S32x64, .f32⟩
  | .hbm, ⟨9, _⟩ => ⟨S1x1000000, .i32⟩
  | .hbm, ⟨10, _⟩ => ⟨S1000000, .i32⟩
  | .hbm, ⟨11, _⟩ => ⟨S1x1000000, .i32⟩
  | .hbm, ⟨12, _⟩ => ⟨S1000000, .i32⟩
  | .hbm, ⟨13, _⟩ => ⟨S_, .i32⟩
  | .hbm, ⟨14, _⟩ => ⟨S1000000, .i32⟩
  | .hbm, ⟨15, _⟩ => ⟨S1000000, .i1⟩
  | .hbm, ⟨16, _⟩ => ⟨S_, .i32⟩
  | .hbm, ⟨17, _⟩ => ⟨S1000000, .i32⟩
  | .hbm, ⟨18, _⟩ => ⟨S1000000, .i32⟩
  | .hbm, ⟨19, _⟩ => ⟨S1000000, .i32⟩
  | .hbm, ⟨20, _⟩ => ⟨S1000000x1, .i32⟩
  | .hbm, ⟨21, _⟩ => ⟨S1000000x64, .f32⟩
  | .hbm, ⟨22, _⟩ => ⟨S1000000x1, .f32⟩
  | .hbm, ⟨23, _⟩ => ⟨S1000000x64, .f32⟩
  | .hbm, ⟨24, _⟩ => ⟨S1000000x64, .f32⟩
  | .hbm, ⟨25, _⟩ => ⟨S_, .f32⟩
  | .hbm, ⟨26, _⟩ => ⟨S100000x64, .f32⟩
  | .hbm, ⟨27, _⟩ => ⟨S1000000x1, .i32⟩
  | .hbm, ⟨28, _⟩ => ⟨S100000x64, .f32⟩
  | .hbm, ⟨29, _⟩ => ⟨S_, .f32⟩
  | .hbm, ⟨30, _⟩ => ⟨S1000000, .f32⟩
  | .hbm, ⟨31, _⟩ => ⟨S_, .f32⟩
  | .hbm, ⟨32, _⟩ => ⟨S100000, .f32⟩
  | .hbm, ⟨33, _⟩ => ⟨S1000000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x64, .f32⟩
  | .hbm, ⟨40, _⟩ => ⟨S100000x64, .f32⟩
  | .hbm, ⟨41, _⟩ => ⟨S64x64, .f32⟩
  | .hbm, ⟨42, _⟩ => ⟨S100000x64, .f32⟩
  | .hbm, ⟨43, _⟩ => ⟨S1x64, .f32⟩
  | .hbm, ⟨44, _⟩ => ⟨S100000x64, .f32⟩
  | .hbm, ⟨45, _⟩ => ⟨S100000x64, .f32⟩
  | .hbm, ⟨46, _⟩ => ⟨S64x64, .f32⟩
  | .hbm, ⟨47, _⟩ => ⟨S100000x64, .f32⟩
  | .hbm, ⟨48, _⟩ => ⟨S100000x64, .f32⟩
  | .hbm, ⟨49, _⟩ => ⟨S100000x64, .f32⟩
  | .hbm, ⟨50, _⟩ => ⟨S100000x64, .f32⟩
  | .hbm, ⟨51, _⟩ => ⟨S_, .f32⟩
  | .hbm, ⟨52, _⟩ => ⟨S100000x64, .f32⟩
  | .hbm, ⟨53, _⟩ => ⟨S100000x64, .f32⟩
  | .hbm, ⟨54, _⟩ => ⟨S_, .f32⟩
  | .hbm, ⟨55, _⟩ => ⟨S100000x64, .f32⟩
  | .hbm, ⟨56, _⟩ => ⟨S100000x64, .f32⟩
  | .hbm, ⟨57, _⟩ => ⟨S1x1000000, .i32⟩
  | .hbm, ⟨58, _⟩ => ⟨S1000000, .i32⟩
  | .hbm, ⟨59, _⟩ => ⟨S1x1000000, .i32⟩
  | .hbm, ⟨60, _⟩ => ⟨S1000000, .i32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x64, .f32⟩
  | .hbm, ⟨70, _⟩ => ⟨S1000000x1, .f32⟩
  | .hbm, ⟨71, _⟩ => ⟨S1000000x64, .f32⟩
  | .hbm, ⟨72, _⟩ => ⟨S1000000x64, .f32⟩
  | .hbm, ⟨73, _⟩ => ⟨S_, .f32⟩
  | .hbm, ⟨74, _⟩ => ⟨S100000x64, .f32⟩
  | .hbm, ⟨75, _⟩ => ⟨S1000000x1, .i32⟩
  | .hbm, ⟨76, _⟩ => ⟨S100000x64, .f32⟩
  | .hbm, ⟨77, _⟩ => ⟨S_, .f32⟩
  | .hbm, ⟨78, _⟩ => ⟨S1000000, .f32⟩
  | .hbm, ⟨79, _⟩ => ⟨S_, .f32⟩
  | .hbm, ⟨80, _⟩ => ⟨S100000, .f32⟩
  | .hbm, ⟨81, _⟩ => ⟨S1000000x1, .i32⟩
  | .hbm, ⟨82, _⟩ => ⟨S100000, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S100000x1, .f32⟩
  | .hbm, ⟨87, _⟩ => ⟨S100000x64, .f32⟩
  | .hbm, ⟨88, _⟩ => ⟨S100000x64, .f32⟩
  | .hbm, ⟨89, _⟩ => ⟨S64x32, .f32⟩
  | .hbm, ⟨90, _⟩ => ⟨S100000x32, .f32⟩
  | .hbm, ⟨91, _⟩ => ⟨S1x32, .f32⟩
  | .hbm, ⟨92, _⟩ => ⟨S100000x32, .f32⟩
  | .hbm, ⟨93, _⟩ => ⟨S100000x32, .f32⟩
  | .hbm, ⟨94, _⟩ => ⟨S64x32, .f32⟩
  | .hbm, ⟨95, _⟩ => ⟨S100000x32, .f32⟩
  | .hbm, ⟨96, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_4 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_c_6 : Ref sig .tc := ⟨.hbm, 61, rfl⟩
abbrev main_v44 : Ref sig .tc := ⟨.hbm, 62, rfl⟩
abbrev main_v45 : Ref sig .tc := ⟨.hbm, 63, rfl⟩
abbrev main_c_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000x1_S1000000x64_0_1 : S1000000x1.BroadcastsInDim S1000000x64 (![0, 1] : Fin 2 → Fin S1000000x64.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S32x64_S64x32_1_0 : S32x64.Transposes [1, 0] S64x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  scatter_S100000_S1000000x1_S1000000_n_0_0_1_wf : ScatterDims.WF S100000 S1000000x1 S1000000 [] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.Spec.lean ====
/-
  One entry of a mean-aggregating graph-convolution layer, as a function of its arrays over the extended reals.

  For node `p` and output feature `q`:
    entry p q = (Σ_k (agg[p,k] / max(cnt[p], 1)) · W_rel[q,k]  +  Σ_k h[p,k] · W_root[q,k])  +  bias[q]
  where `agg` is the edge-weighted sum of the neighbours' features, `cnt` the number of incoming edges,
  `h` the node's own features. The literal `1` is kept as the binary32 word of 1.0 (both programs spell it so).
  Two laws: an entry depends only on row `p` of `agg`, `cnt`, `h` (so a block of rows computes the block of
  entries), and the three summands may be added in either order (`+` on the extended reals is commutative and
  associative, infinities included).
-/
import Idealize.ShloMosaic.PureOps.Ideal
import Idealize.ShloMosaic.Lib.ValueIdx

noncomputable section

namespace Cert.GraphLayers

open Idealize.ShloMosaic Idealize.ShloMosaic.ValueIdx

/-- The layer's entry at node `p`, feature `q`, before any activation. -/
def entry {N K B : ℕ} (agg : (⟨2, ![N, K]⟩ : Shape).Idx → EReal) (cnt : Fin N → EReal)
    (h : (⟨2, ![N, K]⟩ : Shape).Idx → EReal) (wrel wroot : (⟨2, ![B, K]⟩ : Shape).Idx → EReal)
    (bias : Fin B → EReal) (p : Fin N) (q : Fin B) : EReal :=
  ((∑ k : Fin K, Ideal.div (agg (ix2 p k)) (max (cnt p) (Ideal.ofBits .f32 0x3F800000#32)) * wrel (ix2 q k))
    + ∑ k : Fin K, h (ix2 p k) * wroot (ix2 q k)) + bias q

/-- An entry reads only row `p` of the node arrays: if a block of `M` rows agrees with rows `off … off + M − 1`
    of the whole arrays, the block's entry at local row `p` is the whole arrays' entry at row `off + p`. -/
theorem entry_rows {N M K B : ℕ} (agg : (⟨2, ![N, K]⟩ : Shape).Idx → EReal) (cnt : Fin N → EReal)
    (h : (⟨2, ![N, K]⟩ : Shape).Idx → EReal) (agg' : (⟨2, ![M, K]⟩ : Shape).Idx → EReal) (cnt' : Fin M → EReal)
    (h' : (⟨2, ![M, K]⟩ : Shape).Idx → EReal) (wrel wroot : (⟨2, ![B, K]⟩ : Shape).Idx → EReal)
    (bias : Fin B → EReal) (p' : Fin M) (p : Fin N) (q : Fin B)
    (hagg : ∀ k : Fin K, agg' (ix2 p' k) = agg (ix2 p k)) (hcnt : cnt' p' = cnt p)
    (hh : ∀ k : Fin K, h' (ix2 p' k) = h (ix2 p k)) :
    entry agg' cnt' h' wrel wroot bias p' q = entry agg cnt h wrel wroot bias p q := by
  unfold entry
  rw [hcnt]
  congr 2
  · exact Finset.sum_congr rfl fun k _ => by rw [hagg k]
  · exact Finset.sum_congr rfl fun k _ => by rw [hh k]

/-- The order of the three summands does not matter on the extended reals. -/
theorem add_bias_last (a b c : EReal) : (a + c) + b = (a + b) + c := add_right_comm a c b

end Cert.GraphLayers

end
-- ==== Proof.Target.lean ====
/-
  The value both programs compute, as one function of the nine arguments.

  The aggregation of a feature array along the edges (gather the source rows, scale by the edge weight, add into the
  destination rows) and the count of incoming edges are the reference's own stages `val_main_v16` and `val_main_v20`,
  used here as functions of the feature array and never opened: both programs apply the same host operations.
    hidden = logistic ∘ entry(aggregate x, count, x, W_rel1, W_root1, b_rel1)
    output =            entry(aggregate hidden, count, hidden, W_rel2, W_root2, b_rel2)
-/
import proofs.«113769_j72258529788632_1_alg».proof.Proof.Gen.ReferenceIdeal.Read
import proofs.«113769_j72258529788632_1_alg».proof.Proof.Spec

noncomputable section

namespace Cert.GraphLayers

open Idealize.ShloMosaic Idealize.ShloMosaic.ValueIdx
open Cert.ReferenceIdeal Cert.ReferenceIdeal.Read

/-- The first layer's result: the logistic function of the layer's entries on the input features. -/
def hidden (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) :
    (⟨S100000x64, .f32⟩ : BufTy).Contents (Elt Ideal) :=
  fun i => Ideal.logistic (entry (val_main_v16 (F := Ideal) x0 x1 x2) (fun p => val_main_v20 (F := Ideal) x1 (ix1 p)) x0 x3 x5
    (fun q => x4 (ix1 q)) (i 0) (i 1))

/-- The second layer's result on the hidden features, no activation. -/
def output (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S32x64, .f32⟩ : BufTy).Contents (Elt Ideal)) (x7 : (⟨S32, .f32⟩ : BufTy).Contents (Elt Ideal))
    (x8 : (⟨S32x64, .f32⟩ : BufTy).Contents (Elt Ideal)) :
    (⟨S100000x32, .f32⟩ : BufTy).Contents (Elt Ideal) :=
  fun i => entry (val_main_v16 (F := Ideal) (hidden x0 x1 x2 x3 x4 x5) x1 x2) (fun p => val_main_v20 (F := Ideal) x1 (ix1 p))
    (hidden x0 x1 x2 x3 x4 x5) x6 x8 (fun q => x7 (ix1 q)) (i 0) (i 1)

end Cert.GraphLayers

end
-- ==== Proof.RefLayers.lean ====
/-
  The reference program's two layers are the layer entries of the specification.

  Per layer the reference computes (Σ_k (agg[p,k] / max(cnt[p],1)) · W_rel[q,k] + b[q]) + Σ_k h[p,k] · W_root[q,k];
  the specification's entry adds the bias last. Addition on the extended reals is commutative and associative, so the
  two agree. The reference's transposed weights read W at (q, k); its divisor is the maximum of the count and the
  binary32 word of 1.0; its activation is negate, exponential, 1 + ·, 1 / ·, which is the logistic function by
  definition. The second layer recomputes the aggregation and the count by the same host operations on the hidden
  features, so those stages are the first layer's stages applied to the hidden array.
-/
import proofs.«113769_j72258529788632_1_alg».proof.Proof.Target
import Idealize.ShloMosaic.Lib.IdealHost

noncomputable section

namespace Cert.GraphLayers

open Idealize.ShloMosaic Idealize.ShloMosaic.ValueIdx
open Cert.ReferenceIdeal Cert.ReferenceIdeal.Read

/-! ## Index equations: the reference's composed reads at node `p`, feature `q`, contraction position `k` -/

/-- The first layer's divided aggregate is read at row `p`, column `k`. -/
theorem lidx27 (p : Fin 100000) (q k : Fin 64) : lidx_main_v27 (ix2 p q) k = ix2 p k :=
  funext fun a => by match a with | ⟨0, _⟩ => rfl | ⟨1, _⟩ => rfl

/-- The transposed relation weight at `(k, q)` is the weight at `(q, k)`. -/
theorem ridx27 (p : Fin 100000) (q k : Fin 64) : idx_main_v26 (ridx_main_v27 (ix2 p q) k) = ix2 q k :=
  funext fun a => by match a with | ⟨0, _⟩ => rfl | ⟨1, _⟩ => rfl

/-- The node's own features are read at row `p`, column `k`. -/
theorem lidx32 (p : Fin 100000) (q k : Fin 64) : lidx_main_v32 (ix2 p q) k = ix2 p k :=
  funext fun a => by match a with | ⟨0, _⟩ => rfl | ⟨1, _⟩ => rfl

/-- The transposed root weight at `(k, q)` is the weight at `(q, k)`. -/
theorem ridx32 (p : Fin 100000) (q k : Fin 64) : idx_main_v31 (ridx_main_v32 (ix2 p q) k) = ix2 q k :=
  funext fun a => by match a with | ⟨0, _⟩ => rfl | ⟨1, _⟩ => rfl

/-- The broadcast divisor at `(p, k)` is the clamped count of node `p`. -/
theorem didx24 (p : Fin 100000) (k : Fin 64) : idx_main_v23 (idx_main_v24 (ix2 p k)) = ix1 p :=
  funext fun a => by match a with | ⟨0, _⟩ => rfl

/-- The broadcast bias at `(p, q)` is the bias of feature `q`. -/
theorem bidx29 (p : Fin 100000) (q : Fin 64) : idx_main_v28 (idx_main_v29 (ix2 p q)) = ix1 q :=
  funext fun a => by match a with | ⟨0, _⟩ => rfl

/-- Second layer: the divided aggregate of the hidden features is read at row `p`, column `k`. -/
theorem lidx67 (p : Fin 100000) (q : Fin 32) (k : Fin 64) : lidx_main_v67 (ix2 p q) k = ix2 p k :=
  funext fun a => by match a with | ⟨0, _⟩ => rfl | ⟨1, _⟩ => rfl

/-- Second layer: the transposed relation weight at `(k, q)` is the weight at `(q, k)`. -/
theorem ridx67 (p : Fin 100000) (q : Fin 32) (k : Fin 64) : idx_main_v66 (ridx_main_v67 (ix2 p q) k) = ix2 q k :=
  funext fun a => by match a with | ⟨0, _⟩ => rfl | ⟨1, _⟩ => rfl

/-- Second layer: the hidden features are read at row `p`, column `k`. -/
theorem lidx72 (p : Fin 100000) (q : Fin 32) (k : Fin 64) : lidx_main_v72 (ix2 p q) k = ix2 p k :=
  funext fun a => by match a with | ⟨0, _⟩ => rfl | ⟨1, _⟩ => rfl

/-- Second layer: the transposed root weight at `(k, q)` is the weight at `(q, k)`. -/
theorem ridx72 (p : Fin 100000) (q : Fin 32) (k : Fin 64) : idx_main_v71 (ridx_main_v72 (ix2 p q) k) = ix2 q k :=
  funext fun a => by match a with | ⟨0, _⟩ => rfl | ⟨1, _⟩ => rfl

/-- Second layer: the broadcast bias at `(p, q)` is the bias of feature `q`. -/
theorem bidx69 (p : Fin 100000) (q : Fin 32) : idx_main_v68 (idx_main_v69 (ix2 p q)) = ix1 q :=
  funext fun a => by match a with | ⟨0, _⟩ => rfl

/-! ## The first layer -/

/-- The divisor at `(p, k)`: the count of node `p`, clamped below by the binary32 word of 1.0. -/
theorem ref_div (x1 : (⟨S2x1000000, .i32⟩ : BufTy).Contents (Elt Ideal)) (p : Fin 100000) (k : Fin 64) :
    val_main_v24 (F := Ideal) x1 (ix2 p k)
      = max (val_main_v20 (F := Ideal) x1 (ix1 p)) (Ideal.ofBits .f32 0x3F800000#32) := by
  rw [val_main_v24_apply, val_main_v23_apply, didx24, val_main_v22_apply, val_main_v21_apply, val_main_cst_3_apply]
  rfl

/-- Before the activation, the first layer's value at `(p, q)` is the specification's entry. -/
theorem ref_pre (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) (p : Fin 100000) (q : Fin 64) :
    val_main_v33 (F := Ideal) x0 x1 x2 x3 x4 x5 (ix2 p q)
      = entry (val_main_v16 (F := Ideal) x0 x1 x2) (fun p => val_main_v20 (F := Ideal) x1 (ix1 p)) x0 x3 x5
          (fun q => x4 (ix1 q)) p q := by
  rw [val_main_v33_apply, val_main_v30_apply, val_main_v27_apply, val_main_v32_apply, val_main_v29_apply,
    val_main_v28_apply, bidx29, Ideal.addf_def, Ideal.addf_def, add_bias_last]
  unfold entry
  refine congrArg₂ (· + ·) (congrArg₂ (· + ·) ?_ ?_) rfl
  · refine Finset.sum_congr rfl fun k _ => ?_
    rw [lidx27, val_main_v25_apply, ref_div, val_main_v26_apply, ridx27, Ideal.hostDivf_def]
  · refine Finset.sum_congr rfl fun k _ => ?_
    rw [lidx32, val_main_v31_apply, ridx32]

/-- The reference's negate, exponential, `1 + ·`, `1 / ·` is the logistic function of the entry. -/
theorem ref_hidden (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) :
    val_main_v39 (F := Ideal) x0 x1 x2 x3 x4 x5 = hidden x0 x1 x2 x3 x4 x5 := by
  funext i
  obtain ⟨p, q, rfl⟩ : ∃ (p : Fin 100000) (q : Fin 64), i = ix2 p q := ⟨i 0, i 1, eq_ix2 i⟩
  rw [val_main_v39_apply, val_main_v38_apply, val_main_cst_5_apply, val_main_v37_apply, val_main_v36_apply,
    val_main_cst_4_apply, val_main_v35_apply, val_main_v34_apply, ref_pre, Ideal.hostDivf_def, Ideal.addf_def,
    Ideal.hostUnary_exp_def, Ideal.hostNegf_def, Ideal.negf_def, Ideal.ofBits_def, Ideal.ofBits_one_f32]
  rfl

/-! ## The second layer -/

/-- The second layer aggregates the hidden features by the same host operations as the first layer aggregates the
    input features. -/
theorem ref_agg2 (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal)) :
    val_main_v56 (F := Ideal) x0 x1 x2 x3 x4 x5
      = val_main_v16 (F := Ideal) (val_main_v39 (F := Ideal) x0 x1 x2 x3 x4 x5) x1 x2 := rfl

/-- The second layer's broadcast divisor is the first layer's. -/
theorem ref_div2 (x1 : (⟨S2x1000000, .i32⟩ : BufTy).Contents (Elt Ideal)) : val_main_v64 (F := Ideal) x1 = val_main_v24 (F := Ideal) x1 := rfl

/-- The reference's second layer, on the hidden features, is the specification's entry with the bias added last. -/
theorem ref_output (x0 : (⟨S100000x64, .f32⟩ : BufTy).Contents (Elt Ideal)) (x1 : (⟨S2x1000000, .i32⟩ : BufTy).Contents (Elt Ideal))
    (x2 : (⟨S1000000, .f32⟩ : BufTy).Contents (Elt Ideal)) (x3 : (⟨S64x64, .f32⟩ : BufTy).Contents (Elt Ideal))
    (x4 : (⟨S64, .f32⟩ : BufTy).Contents (Elt Ideal)) (x5 : (⟨S64x64, .f32⟩ : BufTy).Contents (Elt Ideal))
    (x6 : (⟨S32x64, .f32⟩ : BufTy).Contents (Elt Ideal)) (x7 : (⟨S32, .f32⟩ : BufTy).Contents (Elt Ideal))
    (x8 : (⟨S32x64, .f32⟩ : BufTy).Contents (Elt Ideal)) :
    val_main_v73 (F := Ideal) x0 x1 x2 x3 x4 x5 x6 x7 x8 = output x0 x1 x2 x3 x4 x5 x6 x7 x8 := by
  funext i
  obtain ⟨p, q, rfl⟩ : ∃ (p : Fin 100000) (q : Fin 32), i = ix2 p q := ⟨i 0, i 1, eq_ix2 i⟩
  rw [val_main_v73_apply, val_main_v70_apply, val_main_v67_apply, val_main_v72_apply, val_main_v69_apply,
    val_main_v68_apply, bidx69, Ideal.addf_def, Ideal.addf_def, add_bias_last]
  unfold output entry
  refine congrArg₂ (· + ·) (congrArg₂ (· + ·) ?_ ?_) rfl
  · refine Finset.sum_congr rfl fun k _ => ?_
    rw [lidx67, val_main_v65_apply, ref_agg2, ref_div2, ref_div, ref_hidden, val_main_v66_apply, ridx67,
      Ideal.hostDivf_def]
  · refine Finset.sum_congr rfl fun k _ => ?_
    rw [lidx72, ref_hidden, val_main_v71_apply, ridx72]

end Cert.GraphLayers

end
-- ==== Proof.KernelRun.lean ====
/-
  The kernel program's run with its result named.

  The program is two kernel regions among stretches of host operations. Every weakly fair execution from a launch
  memory `m` terminates without fault, and in every final state each unscoped buffer holds what the fold of the
  segments leaves in it (`Gen.W4`): the host operations' results, then the first region's write-backs, then more
  host operations, then the second region's write-backs. Read at the result buffer this names the program's value;
  read at the arguments it gives them back unchanged.
-/
import proofs.«113769_j72258529788632_1_alg».proof.Proof.Gen.KernelIdeal.Frame

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the nine arguments end as launched. -/
theorem run_result : θ_run defs (onTc (τ := τ) (main (F := F))) ⟨m, fun _ => 0, ρ⟩ (fun r => ∀ c : Dev nD,
      r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v38 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Layers

end
-- ==== Proof.Payload.lean ====
/-
  What each kernel body stores, read at an index, at the extended reals.

  A body loads a block of 2000 rows of the aggregated features, of the edge counts (one column) and of the node's own
  features, and the whole weight matrices and the bias row. Rounding to the matrix unit's input format is the identity
  on the extended reals, the matrix unit's product into a zero accumulator is the plain sum, and the two broadcasts
  (the count column across the features, the bias row across the nodes) read their one column / one row. So the stored
  block is, entry by entry, `entry` of the loaded blocks — under the logistic function in the first layer, as it is in
  the second.
-/
import proofs.«113769_j72258529788632_1_alg».proof.Proof.Gen.KernelIdeal.Skeleton
import proofs.«113769_j72258529788632_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.Layers

open Idealize.ShloMosaic Idealize.ShloMosaic.ValueIdx
open Cert.KernelIdeal Cert.KernelIdeal.Gen Cert.GraphLayers

/-- A one-column array broadcast across `b` columns reads, at `(p, c)`, its entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem rows_product_64_l0 (i : S2000x64.Idx) (κ : dot_S2000x64_S64x64_S2000x64_1_1_0_0_n_n.contr.Idx) : (dot_S2000x64_S64x64_S2000x64_1_1_0_0_n_n.lhsIdx i κ 0).val = (i 0).val := by
  unfold DotDims.lhsIdx
  rw [dif_neg (show ¬(0 : Fin S2000x64.rank) ∈ dot_S2000x64_S64x64_S2000x64_1_1_0_0_n_n.lhsBatch by decide),
    dif_pos (show (0 : Fin S2000x64.rank) ∈ dot_S2000x64_S64x64_S2000x64_1_1_0_0_n_n.lhsNonContracting by decide)]
  rfl
theorem rows_product_64_l1 (i : S2000x64.Idx) (κ : dot_S2000x64_S64x64_S2000x64_1_1_0_0_n_n.contr.Idx) : (dot_S2000x64_S64x64_S2000x64_1_1_0_0_n_n.lhsIdx i κ 1).val = (κ ⟨0, by decide⟩).val :=
  dot_S2000x64_S64x64_S2000x64_1_1_0_0_n_n.lhsIdx_val_of_single rfl i κ
theorem rows_product_64_r0 (i : S2000x64.Idx) (κ : dot_S2000x64_S64x64_S2000x64_1_1_0_0_n_n.contr.Idx) : (dot_S2000x64_S64x64_S2000x64_1_1_0_0_n_n.rhsIdx i κ 0).val = (i 1).val := by
  unfold DotDims.rhsIdx
  rw [dif_neg (show ¬(0 : Fin S64x64.rank) ∈ dot_S2000x64_S64x64_S2000x64_1_1_0_0_n_n.rhsBatch by decide),
    dif_pos (show (0 : Fin S64x64.rank) ∈ dot_S2000x64_S64x64_S2000x64_1_1_0_0_n_n.rhsNonContracting by decide)]
  rfl
theorem rows_product_64_r1 (i : S2000x64.Idx) (κ : dot_S2000x64_S64x64_S2000x64_1_1_0_0_n_n.contr.Idx) : (dot_S2000x64_S64x64_S2000x64_1_1_0_0_n_n.rhsIdx i κ 1).val = (κ ⟨0, by decide⟩).val :=
  dot_S2000x64_S64x64_S2000x64_1_1_0_0_n_n.rhsIdx_val_of_single rfl i κ

/-- The vector unit's contraction of row `p` of the left factor with row `q` of the right factor (both factors are
    contracted along their second axis), into a zero accumulator: the sum over the 64 shared coordinates. -/
theorem rows_product_64 (l : FVec Ideal S2000x64 .bf16) (r : FVec Ideal S64x64 .bf16) (p : Fin 2000) (q : Fin 64) :
    matmul dot_S2000x64_S64x64_S2000x64_1_1_0_0_n_n none l r (constant S2000x64 .f32 0x00000000#32) (ix2 p q)
      = ∑ k : Fin 64, l (ix2 p k) * r (ix2 q k) := by
  refine (Ideal.matmul_constant_zero_apply dot_S2000x64_S64x64_S2000x64_1_1_0_0_n_n none l r (ix2 p q)).trans ?_
  rw [← Equiv.sum_comp (contrEquiv1 dot_S2000x64_S64x64_S2000x64_1_1_0_0_n_n 64 rfl rfl).symm]
  refine Finset.sum_congr rfl fun k _ => ?_
  have hk := contrEquiv1_symm_val dot_S2000x64_S64x64_S2000x64_1_1_0_0_n_n 64 rfl rfl k
  have el : dot_S2000x64_S64x64_S2000x64_1_1_0_0_n_n.lhsIdx (ix2 p q) ((contrEquiv1 dot_S2000x64_S64x64_S2000x64_1_1_0_0_n_n 64 rfl rfl).symm k) = ix2 p k :=
    funext fun a => Fin.ext (by
      match a with
      | ⟨0, _⟩ => exact rows_product_64_l0 _ _
      | ⟨1, _⟩ => exact (rows_product_64_l1 _ _).trans hk)
  have er : dot_S2000x64_S64x64_S2000x64_1_1_0_0_n_n.rhsIdx (ix2 p q) ((contrEquiv1 dot_S2000x64_S64x64_S2000x64_1_1_0_0_n_n 64 rfl rfl).symm k) = ix2 q k :=
    funext fun a => Fin.ext (by
      match a with
      | ⟨0, _⟩ => exact rows_product_64_r0 _ _
      | ⟨1, _⟩ => exact (rows_product_64_r1 _ _).trans hk)
  rw [el, er]

theorem rows_product_32_l0 (i : S2000x32.Idx) (κ : dot_S2000x64_S32x64_S2000x32_1_1_0_0_n_n.contr.Idx) : (dot_S2000x64_S32x64_S2000x32_1_1_0_0_n_n.lhsIdx i κ 0).val = (i 0).val := by
  unfold DotDims.lhsIdx
  rw [dif_neg (show ¬(0 : Fin S2000x64.rank) ∈ dot_S2000x64_S32x64_S2000x32_1_1_0_0_n_n.lhsBatch by decide),
    dif_pos (show (0 : Fin S2000x64.rank) ∈ dot_S2000x64_S32x64_S2000x32_1_1_0_0_n_n.lhsNonContracting by decide)]
  rfl
theorem rows_product_32_l1 (i : S2000x32.Idx) (κ : dot_S2000x64_S32x64_S2000x32_1_1_0_0_n_n.contr.Idx) : (dot_S2000x64_S32x64_S2000x32_1_1_0_0_n_n.lhsIdx i κ 1).val = (κ ⟨0, by decide⟩).val :=
  dot_S2000x64_S32x64_S2000x32_1_1_0_0_n_n.lhsIdx_val_of_single rfl i κ
theorem rows_product_32_r0 (i : S2000x32.Idx) (κ : dot_S2000x64_S32x64_S2000x32_1_1_0_0_n_n.contr.Idx) : (dot_S2000x64_S32x64_S2000x32_1_1_0_0_n_n.rhsIdx i κ 0).val = (i 1).val := by
  unfold DotDims.rhsIdx
  rw [dif_neg (show ¬(0 : Fin S32x64.rank) ∈ dot_S2000x64_S32x64_S2000x32_1_1_0_0_n_n.rhsBatch by decide),
    dif_pos (show (0 : Fin S32x64.rank) ∈ dot_S2000x64_S32x64_S2000x32_1_1_0_0_n_n.rhsNonContracting by decide)]
  rfl
theorem rows_product_32_r1 (i : S2000x32.Idx) (κ : dot_S2000x64_S32x64_S2000x32_1_1_0_0_n_n.contr.Idx) : (dot_S2000x64_S32x64_S2000x32_1_1_0_0_n_n.rhsIdx i κ 1).val = (κ ⟨0, by decide⟩).val :=
  dot_S2000x64_S32x64_S2000x32_1_1_0_0_n_n.rhsIdx_val_of_single rfl i κ

/-- The vector unit's contraction of row `p` of the left factor with row `q` of the right factor (both factors are
    contracted along their second axis), into a zero accumulator: the sum over the 64 shared coordinates. -/
theorem rows_product_32 (l : FVec Ideal S2000x64 .bf16) (r : FVec Ideal S32x64 .bf16) (p : Fin 2000) (q : Fin 32) :
    matmul dot_S2000x64_S32x64_S2000x32_1_1_0_0_n_n none l r (constant S2000x32 .f32 0x00000000#32) (ix2 p q)
      = ∑ k : Fin 64, l (ix2 p k) * r (ix2 q k) := by
  refine (Ideal.matmul_constant_zero_apply dot_S2000x64_S32x64_S2000x32_1_1_0_0_n_n none l r (ix2 p q)).trans ?_
  rw [← Equiv.sum_comp (contrEquiv1 dot_S2000x64_S32x64_S2000x32_1_1_0_0_n_n 64 rfl rfl).symm]
  refine Finset.sum_congr rfl fun k _ => ?_
  have hk := contrEquiv1_symm_val dot_S2000x64_S32x64_S2000x32_1_1_0_0_n_n 64 rfl rfl k
  have el : dot_S2000x64_S32x64_S2000x32_1_1_0_0_n_n.lhsIdx (ix2 p q) ((contrEquiv1 dot_S2000x64_S32x64_S2000x32_1_1_0_0_n_n 64 rfl rfl).symm k) = ix2 p k :=
    funext fun a => Fin.ext (by
      match a with
      | ⟨0, _⟩ => exact rows_product_32_l0 _ _
      | ⟨1, _⟩ => exact (rows_product_32_l1 _ _).trans hk)
  have er : dot_S2000x64_S32x64_S2000x32_1_1_0_0_n_n.rhsIdx (ix2 p q) ((contrEquiv1 dot_S2000x64_S32x64_S2000x32_1_1_0_0_n_n 64 rfl rfl).symm k) = ix2 q k :=
    funext fun a => Fin.ext (by
      match a with
      | ⟨0, _⟩ => exact rows_product_32_r0 _ _
      | ⟨1, _⟩ => exact (rows_product_32_r1 _ _).trans hk)
  rw [el, er]

/-- The mean-aggregated block: each aggregated row divided by its count clamped below at one. -/
theorem mean_block_apply (x0 : Vec Ideal S2000x64 .f32) (x1 : Vec Ideal S2000x1 .f32) (p : Fin 2000) (k : Fin 64) :
    divf (shapeCast S2000x64 x0 shapeCasts_S2000x64_S2000x64)
        (broadcastTo S2000x64 (maximumf (shapeCast S2000x1 x1 shapeCasts_S2000x1_S2000x1)
          (broadcast S2000x1 (Scalar.ofBits (F := Ideal) .f32 0x3F800000#32))) broadcasts_S2000x1_S2000x64) (ix2 p k)
      = Ideal.div (x0 (ix2 p k)) (max (x1 (ix2 p (0 : Fin 1))) (Ideal.ofBits .f32 0x3F800000#32)) := by
  rw [shapeCast_self, shapeCast_self]
  show Ideal.div (x0 (ix2 p k)) (broadcastTo S2000x64 _ broadcasts_S2000x1_S2000x64 (ix2 p k)) = _
  rw [broadcastTo_a1_ab_apply]
  rfl

/-- The first layer's stored block at `(p, q)`: the logistic function of the layer's entry on the loaded blocks. -/
theorem stored_hidden_apply (x0 : Vec Ideal S2000x64 .f32) (x1 : Vec Ideal S2000x1 .f32) (x2 : Vec Ideal S2000x64 .f32)
    (w3 : Vec Ideal S64x64 .f32) (w5 : Vec Ideal S64x64 .f32) (b4 : Vec Ideal S1x64 .f32) (p : Fin 2000) (q : Fin 64) :
    k0_pay1 x0 x1 x2 w3 w5 b4 (ix2 p q)
      = Ideal.logistic (entry x0 (fun p => x1 (ix2 p (0 : Fin 1))) x2 w3 w5 (fun q => b4 (ix2 (0 : Fin 1) q)) p q) := by
  unfold k0_pay1
  refine congrArg Ideal.logistic ?_
  unfold entry
  refine congrArg₂ (· + ·) (congrArg₂ (· + ·) ?_ ?_) ?_
  · refine (rows_product_64 _ _ p q).trans (Finset.sum_congr rfl fun k _ => ?_)
    exact congrArg (· * w3 (ix2 q k)) (mean_block_apply x0 x1 p k)
  · exact rows_product_64 _ _ p q
  · rw [shapeCast_self]
    exact broadcastTo_1b_ab_apply b4 broadcasts_S1x64_S2000x64 p q

/-- The second layer's stored block at `(p, q)`: the layer's entry on the loaded blocks. -/
theorem stored_output_apply (x0 : Vec Ideal S2000x64 .f32) (x1 : Vec Ideal S2000x1 .f32) (x2 : Vec Ideal S2000x64 .f32)
    (w3 : Vec Ideal S32x64 .f32) (w5 : Vec Ideal S32x64 .f32) (b4 : Vec Ideal S1x32 .f32) (p : Fin 2000) (q : Fin 32) :
    k1_pay1 x0 x1 x2 w3 w5 b4 (ix2 p q)
      = entry x0 (fun p => x1 (ix2 p (0 : Fin 1))) x2 w3 w5 (fun q => b4 (ix2 (0 : Fin 1) q)) p q := by
  unfold k1_pay1
  unfold entry
  refine congrArg₂ (· + ·) (congrArg₂ (· + ·) ?_ ?_) ?_
  · refine (rows_product_32 _ _ p q).trans (Finset.sum_congr rfl fun k _ => ?_)
    exact congrArg (· * w3 (ix2 q k)) (mean_block_apply x0 x1 p k)
  · refine (rows_product_32 _ _ p q).trans (Finset.sum_congr rfl fun k _ => ?_)
    rw [shapeCast_self]
    rfl
  · rw [shapeCast_self]
    exact broadcastTo_1b_ab_apply b4 broadcasts_S1x32_S2000x32 p q

end Cert.KernelIdeal.Layers

end
-- ==== Proof.Blocks.lean ====
/-
  From blocks to arrays: what each kernel region leaves in its result array.

  A region runs its body at fifty grid points; point `t` fetches rows `2000 t … 2000 t + 1999` of the aggregated
  features, of the counts and of the node's own features, the whole weight matrices and the bias row, and writes back
  rows `2000 t … 2000 t + 1999` of the result. An entry of a layer reads only its own row of the node arrays, so the
  block a point writes is the restriction of ONE whole-array function of the operand arrays; the fifty blocks tile
  the result, which therefore ends holding that function. Stated for any contents `V` of the buffers at the region's
  entry.
-/
import proofs.«113769_j72258529788632_1_alg».proof.Proof.Gen.KernelIdeal.Frame
import proofs.«113769_j72258529788632_1_alg».proof.Proof.Payload
import Idealize.ShloMosaic.Lib.Pipeline.Value

set_option maxRecDepth 16384

noncomputable section

namespace Cert.KernelIdeal.Layers

open Idealize.ShloMosaic Idealize.ShloMosaic.TcCoe Idealize.ShloMosaic.ValueIdx Idealize.SL.Sem
open Idealize.ShloMosaic.Pipeline (Dat)
open Cert.KernelIdeal Cert.KernelIdeal.Gen Cert.GraphLayers

theorem hz : (![0, 0] : Fin 2 → Nat) = fun _ => 0 := funext fun a => by fin_cases a <;> rfl

/-- The first layer as a whole-array function of its operand arrays: the logistic function of each entry. The count
    comes as a one-column array and the bias as a one-row array, as the kernel is handed them. -/
def hiddenOf (A : S100000x64.Idx → Ideal .f32) (C : S100000x1.Idx → Ideal .f32) (H : S100000x64.Idx → Ideal .f32)
    (W : S64x64.Idx → Ideal .f32) (Bv : S1x64.Idx → Ideal .f32) (W' : S64x64.Idx → Ideal .f32) : S100000x64.Idx → Ideal .f32 :=
  fun i => Ideal.logistic (entry A (fun p => C (ix2 p (0 : Fin 1))) H W W' (fun q => Bv (ix2 (0 : Fin 1) q)) (i 0) (i 1))

/-- The second layer as a whole-array function of its operand arrays. -/
def outputOf (A : S100000x64.Idx → Ideal .f32) (C : S100000x1.Idx → Ideal .f32) (H : S100000x64.Idx → Ideal .f32)
    (W : S32x64.Idx → Ideal .f32) (Bv : S1x32.Idx → Ideal .f32) (W' : S32x64.Idx → Ideal .f32) : S100000x32.Idx → Ideal .f32 :=
  fun i => entry A (fun p => C (ix2 p (0 : Fin 1))) H W W' (fun q => Bv (ix2 (0 : Fin 1) q)) (i 0) (i 1)

variable (V : (c : Dev nD) → (b : Ref sig .tc) → Buf (Elt Ideal) ((c : Thread nD τ).loc b))

/-! ## Region 0: the first layer -/

/-- The printed index maps over the grid: the three node-array windows and the result window move with the grid
    point along the node axis, one block of 2000 rows per point; the weight and bias windows stay at block 0. -/
theorem index_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt0 (t : Fin cfg0.N) : t.val < 50 := by
  have h := t.isLt
  have hN : cfg0.N = 50 := N_0
  omega

/-- The aggregated-features window's block at point `t` holds rows `2000 t … 2000 t + 1999` of its array. -/
theorem rows0_0 (c : Dev nD) (t : Fin cfg0.N) (p : Fin 2000) (k : Fin 64) (hp : t.val * 2000 + p.val < 100000) :
    (iblk0 V c 0 t : Vec Ideal S2000x64 .f32) (ix2 p k)
      = (V c main_v21 : S100000x64.Idx → Ideal .f32) (ix2 ⟨t.val * 2000 + p.val, hp⟩ k) := by
  obtain ⟨e0, e1, -⟩ := index_facts0 t
  unfold iblk0
  rw [View.read_apply]
  show V c main_v21 _ = V c main_v21 _
  refine congrArg _ (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 64 + 1 * k.val = k.val; rw [e1]; omega

/-- The count window's block at point `t` holds the same rows of the one-column count array. -/
theorem rows0_1 (c : Dev nD) (t : Fin cfg0.N) (p : Fin 2000) (hp : t.val * 2000 + p.val < 100000) :
    (iblk0 V c 1 t : Vec Ideal S2000x1 .f32) (ix2 p (0 : Fin 1))
      = (V c main_v8 : S100000x1.Idx → Ideal .f32) (ix2 ⟨t.val * 2000 + p.val, hp⟩ (0 : Fin 1)) := by
  obtain ⟨-, -, e0, e1, -⟩ := index_facts0 t
  unfold iblk0
  rw [View.read_apply]
  show V c main_v8 _ = V c main_v8 _
  refine congrArg _ (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 1 + 1 * 0 = 0; rw [e1]

/-- The own-features window's block at point `t` holds the same rows of its array. -/
theorem rows0_2 (c : Dev nD) (t : Fin cfg0.N) (p : Fin 2000) (k : Fin 64) (hp : t.val * 2000 + p.val < 100000) :
    (iblk0 V c 2 t : Vec Ideal S2000x64 .f32) (ix2 p k)
      = (V c main_arg0 : S100000x64.Idx → Ideal .f32) (ix2 ⟨t.val * 2000 + p.val, hp⟩ k) := by
  obtain ⟨-, -, -, -, e0, e1, -⟩ := index_facts0 t
  unfold iblk0
  rw [View.read_apply]
  show V c main_arg0 _ = V c main_arg0 _
  refine congrArg _ (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 64 + 1 * k.val = k.val; rw [e1]; omega

/-- The neighbour-weight window's one block is its whole array. -/
theorem whole0_3 (c : Dev nD) (t : Fin cfg0.N) :
    (iblk0 V c 3 t : Vec Ideal S64x64 .f32) = (V c main_arg3 : S64x64.Idx → Ideal .f32) := by
  obtain ⟨-, -, -, -, -, -, e0, e1, -⟩ := index_facts0 t
  funext y
  unfold iblk0
  rw [View.read_apply]
  show V c main_arg3 _ = V c main_arg3 y
  refine congrArg _ (funext fun a => Fin.ext ?_)
  match a with
  | ⟨0, _⟩ => show win0_3.index t (0 : Fin 2) * 64 + 1 * (y 0).val = (y 0).val; rw [e0]; omega
  | ⟨1, _⟩ => show win0_3.index t (1 : Fin 2) * 64 + 1 * (y 1).val = (y 1).val; rw [e1]; omega

/-- The bias window's one block is its whole one-row array. -/
theorem whole0_4 (c : Dev nD) (t : Fin cfg0.N) :
    (iblk0 V c 4 t : Vec Ideal S1x64 .f32) = (V c main_v22 : S1x64.Idx → Ideal .f32) := by
  obtain ⟨-, -, -, -, -, -, -, -, e0, e1, -⟩ := index_facts0 t
  funext y
  unfold iblk0
  rw [View.read_apply]
  show V c main_v22 _ = V c main_v22 y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 64 + 1 * (y 1).val = (y 1).val; rw [e1]; omega

/-- The self-weight window's one block is its whole array. -/
theorem whole0_5 (c : Dev nD) (t : Fin cfg0.N) :
    (iblk0 V c 5 t : Vec Ideal S64x64 .f32) = (V c main_arg5 : S64x64.Idx → Ideal .f32) := by
  obtain ⟨-, -, -, -, -, -, -, -, -, -, e0, e1, -⟩ := index_facts0 t
  funext y
  unfold iblk0
  rw [View.read_apply]
  show V c main_arg5 _ = V c main_arg5 y
  refine congrArg _ (funext fun a => Fin.ext ?_)
  match a with
  | ⟨0, _⟩ => show win0_5.index t (0 : Fin 2) * 64 + 1 * (y 0).val = (y 0).val; rw [e0]; omega
  | ⟨1, _⟩ => show win0_5.index t (1 : Fin 2) * 64 + 1 * (y 1).val = (y 1).val; rw [e1]; omega

/-- What point `t` writes back is block `t` of the layer's whole-array function of the six operand arrays as the
    region finds them: the stored value at local row `p` is the layer's entry at row `2000 t + p`, since an entry
    reads only its own row of the node arrays. -/
theorem flushed0 (c : Dev nD) (t : Fin cfg0.N) :
    (dat0 V c).flushed 6 t = ((cfg0.win 6).blk t).view.read (Elt Ideal)
      (hiddenOf (V c main_v21) (V c main_v8) (V c main_arg0) (V c main_arg3) (V c main_v22) (V c main_arg5)) := by
  have ht := point_lt0 t
  obtain ⟨-, -, -, -, -, -, -, -, -, -, -, -, e0, e1⟩ := index_facts0 t
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S64x64) hz,
    View.ld_unit_zero (S := S1x64) hz]
  rw [whole0_3 V c t, whole0_4 V c t, whole0_5 V c t]
  funext j
  have hj0 : (j 0).val < 2000 := (j 0).isLt
  have hj1 : (j 1).val < 64 := (j 1).isLt
  have hjx : j = (ix2 (⟨(j 0).val, hj0⟩ : Fin 2000) (⟨(j 1).val, hj1⟩ : Fin 64) : S2000x64.Idx) :=
    funext fun a => by
      match a with
      | ⟨0, _⟩ => rfl
      | ⟨1, _⟩ => rfl
  have he : ((cfg0.win 6).blk t).view.emb j
      = (ix2 (⟨t.val * 2000 + (j 0).val, by omega⟩ : Fin 100000) (⟨(j 1).val, hj1⟩ : Fin 64) : S100000x64.Idx) :=
    funext fun a => Fin.ext (by
      match a with
      | ⟨0, _⟩ => show win0_6.index t (0 : Fin 2) * 2000 + 1 * (j 0).val = t.val * 2000 + (j 0).val; rw [e0]; omega
      | ⟨1, _⟩ => show win0_6.index t (1 : Fin 2) * 64 + 1 * (j 1).val = (j 1).val; rw [e1]; omega)
  show k0_pay1 (iblk0 V c 0 t) (iblk0 V c 1 t) (iblk0 V c 2 t) (V c main_arg3) (V c main_arg5) (V c main_v22) j
    = hiddenOf (V c main_v21) (V c main_v8) (V c main_arg0) (V c main_arg3) (V c main_v22) (V c main_arg5) (((cfg0.win 6).blk t).view.emb j)
  rw [he]
  refine (congrArg (k0_pay1 (iblk0 V c 0 t) (iblk0 V c 1 t) (iblk0 V c 2 t) (V c main_arg3) (V c main_arg5) (V c main_v22)) hjx).trans ?_
  rw [stored_hidden_apply]
  unfold hiddenOf
  refine congrArg Ideal.logistic (entry_rows _ _ _ _ _ _ _ _ _ _ _ _ ?_ ?_ ?_)
  · intro k; exact rows0_0 V c t _ k _
  · exact rows0_1 V c t _ _
  · intro k; exact rows0_2 V c t _ k _

/-- An index of the result array is in point `t`'s block iff each coordinate is in the block's range on its axis. -/
theorem mem_block0 (t : Fin cfg0.N) (i : S100000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v23).slice (win0_6.rect t)).set ↔ _
  rw [View.set_slice_whole, Rect.mem_set_unit]
  exact Iff.rfl

/-- Row `r` of the result is written by point `r / 2000`: the fifty blocks of 2000 rows tile the 100000 rows. -/
theorem covered0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  have hN : cfg0.N = 50 := N_0
  refine ⟨⟨(i 0).val / 2000, by rw [hN]; omega⟩, flush0_6 _, ?_⟩
  rw [mem_block0]
  obtain ⟨-, -, -, -, -, -, -, -, -, -, -, -, e0, e1⟩ := index_facts0 ⟨(i 0).val / 2000, by rw [hN]; omega⟩
  intro a
  match a with
  | ⟨0, _⟩ =>
    show win0_6.index ⟨(i 0).val / 2000, _⟩ (0 : Fin 2) * 2000 ≤ (i 0).val
      ∧ (i 0).val < win0_6.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win0_6.index ⟨(i 0).val / 2000, _⟩ (1 : Fin 2) * 64 ≤ (i 1).val
      ∧ (i 1).val < win0_6.index ⟨(i 0).val / 2000, _⟩ (1 : Fin 2) * 64 + 64
    rw [e1]
    omega

/-- The result array after the region: the layer's whole-array function of the operand arrays as the region finds them. -/
theorem final0 (c : Dev nD) :
    (dat0 V c).arrAt 6 cfg0.N
      = hiddenOf (V c main_v21) (V c main_v8) (V c main_arg0) (V c main_arg3) (V c main_v22) (V c main_arg5) :=
  (dat0 V c).arrAt_eq_of_cover 6 _ (fun t _ => flushed0 V c t) covered0

/-! ## Region 1: the second layer -/

/-- The printed index maps over the grid: the three node-array windows and the result window move with the grid
    point along the node axis, one block of 2000 rows per point; the weight and bias windows stay at block 0. -/
theorem index_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem point_lt1 (t : Fin cfg1.N) : t.val < 50 := by
  have h := t.isLt
  have hN : cfg1.N = 50 := N_1
  omega

/-- The aggregated-features window's block at point `t` holds rows `2000 t … 2000 t + 1999` of its array. -/
theorem rows1_0 (c : Dev nD) (t : Fin cfg1.N) (p : Fin 2000) (k : Fin 64) (hp : t.val * 2000 + p.val < 100000) :
    (iblk1 V c 0 t : Vec Ideal S2000x64 .f32) (ix2 p k)
      = (V c main_v36 : S100000x64.Idx → Ideal .f32) (ix2 ⟨t.val * 2000 + p.val, hp⟩ k) := by
  obtain ⟨e0, e1, -⟩ := index_facts1 t
  unfold iblk1
  rw [View.read_apply]
  show V c main_v36 _ = V c main_v36 _
  refine congrArg _ (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 64 + 1 * k.val = k.val; rw [e1]; omega

/-- The count window's block at point `t` holds the same rows of the one-column count array. -/
theorem rows1_1 (c : Dev nD) (t : Fin cfg1.N) (p : Fin 2000) (hp : t.val * 2000 + p.val < 100000) :
    (iblk1 V c 1 t : Vec Ideal S2000x1 .f32) (ix2 p (0 : Fin 1))
      = (V c main_v8 : S100000x1.Idx → Ideal .f32) (ix2 ⟨t.val * 2000 + p.val, hp⟩ (0 : Fin 1)) := by
  obtain ⟨-, -, e0, e1, -⟩ := index_facts1 t
  unfold iblk1
  rw [View.read_apply]
  show V c main_v8 _ = V c main_v8 _
  refine congrArg _ (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 1 + 1 * 0 = 0; rw [e1]

/-- The own-features window's block at point `t` holds the same rows of its array. -/
theorem rows1_2 (c : Dev nD) (t : Fin cfg1.N) (p : Fin 2000) (k : Fin 64) (hp : t.val * 2000 + p.val < 100000) :
    (iblk1 V c 2 t : Vec Ideal S2000x64 .f32) (ix2 p k)
      = (V c main_v23 : S100000x64.Idx → Ideal .f32) (ix2 ⟨t.val * 2000 + p.val, hp⟩ k) := by
  obtain ⟨-, -, -, -, e0, e1, -⟩ := index_facts1 t
  unfold iblk1
  rw [View.read_apply]
  show V c main_v23 _ = V c main_v23 _
  refine congrArg _ (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 64 + 1 * k.val = k.val; rw [e1]; omega

/-- The neighbour-weight window's one block is its whole array. -/
theorem whole1_3 (c : Dev nD) (t : Fin cfg1.N) :
    (iblk1 V c 3 t : Vec Ideal S32x64 .f32) = (V c main_arg6 : S32x64.Idx → Ideal .f32) := by
  obtain ⟨-, -, -, -, -, -, e0, e1, -⟩ := index_facts1 t
  funext y
  unfold iblk1
  rw [View.read_apply]
  show V c main_arg6 _ = V c main_arg6 y
  refine congrArg _ (funext fun a => Fin.ext ?_)
  match a with
  | ⟨0, _⟩ => show win1_3.index t (0 : Fin 2) * 32 + 1 * (y 0).val = (y 0).val; rw [e0]; omega
  | ⟨1, _⟩ => show win1_3.index t (1 : Fin 2) * 64 + 1 * (y 1).val = (y 1).val; rw [e1]; omega

/-- The bias window's one block is its whole one-row array. -/
theorem whole1_4 (c : Dev nD) (t : Fin cfg1.N) :
    (iblk1 V c 4 t : Vec Ideal S1x32 .f32) = (V c main_v37 : S1x32.Idx → Ideal .f32) := by
  obtain ⟨-, -, -, -, -, -, -, -, e0, e1, -⟩ := index_facts1 t
  funext y
  unfold iblk1
  rw [View.read_apply]
  show V c main_v37 _ = V c main_v37 y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 32 + 1 * (y 1).val = (y 1).val; rw [e1]; omega

/-- The self-weight window's one block is its whole array. -/
theorem whole1_5 (c : Dev nD) (t : Fin cfg1.N) :
    (iblk1 V c 5 t : Vec Ideal S32x64 .f32) = (V c main_arg8 : S32x64.Idx → Ideal .f32) := by
  obtain ⟨-, -, -, -, -, -, -, -, -, -, e0, e1, -⟩ := index_facts1 t
  funext y
  unfold iblk1
  rw [View.read_apply]
  show V c main_arg8 _ = V c main_arg8 y
  refine congrArg _ (funext fun a => Fin.ext ?_)
  match a with
  | ⟨0, _⟩ => show win1_5.index t (0 : Fin 2) * 32 + 1 * (y 0).val = (y 0).val; rw [e0]; omega
  | ⟨1, _⟩ => show win1_5.index t (1 : Fin 2) * 64 + 1 * (y 1).val = (y 1).val; rw [e1]; omega

/-- What point `t` writes back is block `t` of the layer's whole-array function of the six operand arrays as the
    region finds them: the stored value at local row `p` is the layer's entry at row `2000 t + p`, since an entry
    reads only its own row of the node arrays. -/
theorem flushed1 (c : Dev nD) (t : Fin cfg1.N) :
    (dat1 V c).flushed 6 t = ((cfg1.win 6).blk t).view.read (Elt Ideal)
      (outputOf (V c main_v36) (V c main_v8) (V c main_v23) (V c main_arg6) (V c main_v37) (V c main_arg8)) := by
  have ht := point_lt1 t
  obtain ⟨-, -, -, -, -, -, -, -, -, -, -, -, e0, e1⟩ := index_facts1 t
  show (cfg1.win 6).cut (grid1.coords t) ((dat1 V c).after 6 t) = _
  rw [after1_6]
  unfold out1_6
  rw [View.canon_unit_zero hz]
  simp only [View.ld_unit_zero (S := S2000x64) hz, View.ld_unit_zero (S := S2000x1) hz, View.ld_unit_zero (S := S32x64) hz,
    View.ld_unit_zero (S := S1x32) hz]
  rw [whole1_3 V c t, whole1_4 V c t, whole1_5 V c t]
  funext j
  have hj0 : (j 0).val < 2000 := (j 0).isLt
  have hj1 : (j 1).val < 32 := (j 1).isLt
  have hjx : j = (ix2 (⟨(j 0).val, hj0⟩ : Fin 2000) (⟨(j 1).val, hj1⟩ : Fin 32) : S2000x32.Idx) :=
    funext fun a => by
      match a with
      | ⟨0, _⟩ => rfl
      | ⟨1, _⟩ => rfl
  have he : ((cfg1.win 6).blk t).view.emb j
      = (ix2 (⟨t.val * 2000 + (j 0).val, by omega⟩ : Fin 100000) (⟨(j 1).val, hj1⟩ : Fin 32) : S100000x32.Idx) :=
    funext fun a => Fin.ext (by
      match a with
      | ⟨0, _⟩ => show win1_6.index t (0 : Fin 2) * 2000 + 1 * (j 0).val = t.val * 2000 + (j 0).val; rw [e0]; omega
      | ⟨1, _⟩ => show win1_6.index t (1 : Fin 2) * 32 + 1 * (j 1).val = (j 1).val; rw [e1]; omega)
  show k1_pay1 (iblk1 V c 0 t) (iblk1 V c 1 t) (iblk1 V c 2 t) (V c main_arg6) (V c main_arg8) (V c main_v37) j
    = outputOf (V c main_v36) (V c main_v8) (V c main_v23) (V c main_arg6) (V c main_v37) (V c main_arg8) (((cfg1.win 6).blk t).view.emb j)
  rw [he]
  refine (congrArg (k1_pay1 (iblk1 V c 0 t) (iblk1 V c 1 t) (iblk1 V c 2 t) (V c main_arg6) (V c main_arg8) (V c main_v37)) hjx).trans ?_
  rw [stored_output_apply]
  unfold outputOf
  refine (entry_rows _ _ _ _ _ _ _ _ _ _ _ _ ?_ ?_ ?_)
  · intro k; exact rows1_0 V c t _ k _
  · exact rows1_1 V c t _ _
  · intro k; exact rows1_2 V c t _ k _

/-- An index of the result array is in point `t`'s block iff each coordinate is in the block's range on its axis. -/
theorem mem_block1 (t : Fin cfg1.N) (i : S100000x32.Idx) :
    i ∈ ((cfg1.win 6).blk t).view.set ↔ ∀ a : Fin 2, win1_6.index t a * S2000x32.size a ≤ (i a).val
      ∧ (i a).val < win1_6.index t a * S2000x32.size a + S2000x32.size a := by
  show i ∈ ((View.whole main_v38).slice (win1_6.rect t)).set ↔ _
  rw [View.set_slice_whole, Rect.mem_set_unit]
  exact Iff.rfl

/-- Row `r` of the result is written by point `r / 2000`: the fifty blocks of 2000 rows tile the 100000 rows. -/
theorem covered1 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : cfg1.N = 50 := N_1
  refine ⟨⟨(i 0).val / 2000, by rw [hN]; omega⟩, flush1_6 _, ?_⟩
  rw [mem_block1]
  obtain ⟨-, -, -, -, -, -, -, -, -, -, -, -, e0, e1⟩ := index_facts1 ⟨(i 0).val / 2000, by rw [hN]; omega⟩
  intro a
  match a with
  | ⟨0, _⟩ =>
    show win1_6.index ⟨(i 0).val / 2000, _⟩ (0 : Fin 2) * 2000 ≤ (i 0).val
      ∧ (i 0).val < win1_6.index ⟨(i 0).val / 2000, _⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, _⟩ (1 : Fin 2) * 32 ≤ (i 1).val
      ∧ (i 1).val < win1_6.index ⟨(i 0).val / 2000, _⟩ (1 : Fin 2) * 32 + 32
    rw [e1]
    omega

/-- The result array after the region: the layer's whole-array function of the operand arrays as the region finds them. -/
theorem final1 (c : Dev nD) :
    (dat1 V c).arrAt 6 cfg1.N
      = outputOf (V c main_v36) (V c main_v8) (V c main_v23) (V c main_arg6) (V c main_v37) (V c main_arg8) :=
  (dat1 V c).arrAt_eq_of_cover 6 _ (fun t _ => flushed1 V c t) covered1

end Cert.KernelIdeal.Layers

end
-- ==== Proof.KernelValue.lean ====
/-
  The kernel program's value: what its result buffer holds at the last boundary, as the target function of the nine
  launch arrays.

  Read boundary by boundary. At the first region's entry the host operations have left: the edge aggregation of the
  input features and the edge counts (the reference's own stages of the same operations, never opened), the bias as
  a one-row array, and the arguments untouched. The first region's result array is then the logistic function of the
  first layer's entries: `hidden`. At the second region's entry the host operations have aggregated THAT array along
  the same edges; the counts, untouched by the first region, are as before. The second region's result array is the
  second layer's entries on the hidden features: `output`.
-/
import proofs.«113769_j72258529788632_1_alg».proof.Proof.Gen.KernelIdeal.Frame
import proofs.«113769_j72258529788632_1_alg».proof.Proof.Blocks
import proofs.«113769_j72258529788632_1_alg».proof.Proof.Target
import Idealize.ShloMosaic.Lib.StableHlo.Run
import Idealize.ShloMosaic.Lib.Pipeline.Value
import Idealize.ShloMosaic.Lib.ValueLayout

set_option maxRecDepth 16384

noncomputable section

namespace Cert.KernelIdeal.Layers

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.GraphLayers

/-! ## Keepdims forms: the count as a column, the bias as a row -/

/-- With the count handed over as a one-column array and the bias as a one-row array, the first layer's whole-array
    function reads the count vector and the bias vector entry by entry. -/
theorem hiddenOf_vectors (A H : S100000x64.Idx → Ideal .f32) (W W' : S64x64.Idx → Ideal .f32)
    (cntv : S100000.Idx → Ideal .f32) (b : S64.Idx → Ideal .f32) :
    hiddenOf A (broadcastInDim S100000x1 ![0] bcast_S100000_S100000x1_0 cntv) H W (shapeCast S1x64 b shapeCasts_S64_S1x64) W'
      = fun i => Ideal.logistic (entry A (fun p => cntv (ix1 p)) H W W' (fun q => b (ix1 q)) (i 0) (i 1)) := by
  have h1 : ∀ p : Fin 100000, broadcastInDim S100000x1 ![0] bcast_S100000_S100000x1_0 cntv (ix2 p (0 : Fin 1)) = cntv (ix1 p) :=
    fun p => broadcastInDim_apply _ bcast_S100000_S100000x1_0 cntv _ _ (fun a => by
      match a with
      | ⟨0, _⟩ => show p.val = if (100000 : Nat) = 1 then 0 else p.val; rw [if_neg (by decide)])
  have h2 : ∀ q : Fin 64, shapeCast S1x64 b shapeCasts_S64_S1x64 (ix2 (0 : Fin 1) q) = b (ix1 q) :=
    fun q => shapeCast_a_1a_apply b shapeCasts_S64_S1x64 0 q
  unfold hiddenOf
  simp only [h1, h2]

/-- The same for the second layer. -/
theorem outputOf_vectors (A H : S100000x64.Idx → Ideal .f32) (W W' : S32x64.Idx → Ideal .f32)
    (cntv : S100000.Idx → Ideal .f32) (b : S32.Idx → Ideal .f32) :
    outputOf A (broadcastInDim S100000x1 ![0] bcast_S100000_S100000x1_0 cntv) H W (shapeCast S1x32 b shapeCasts_S32_S1x32) W'
      = fun i => entry A (fun p => cntv (ix1 p)) H W W' (fun q => b (ix1 q)) (i 0) (i 1) := by
  have h1 : ∀ p : Fin 100000, broadcastInDim S100000x1 ![0] bcast_S100000_S100000x1_0 cntv (ix2 p (0 : Fin 1)) = cntv (ix1 p) :=
    fun p => broadcastInDim_apply _ bcast_S100000_S100000x1_0 cntv _ _ (fun a => by
      match a with
      | ⟨0, _⟩ => show p.val = if (100000 : Nat) = 1 then 0 else p.val; rw [if_neg (by decide)])
  have h2 : ∀ q : Fin 32, shapeCast S1x32 b shapeCasts_S32_S1x32 (ix2 (0 : Fin 1) q) = b (ix1 q) :=
    fun q => shapeCast_a_1a_apply b shapeCasts_S32_S1x32 0 q
  unfold outputOf
  simp only [h1, h2]

variable (m : (ℓ : Loc nD τ sig) → Buf (Elt Ideal) ℓ) (ρ : Dev nD → PrngReg)

/-! ## The first region's entry: what the first stretch of host operations leaves -/

theorem entry0_agg (c : Dev nD) :
    (V1 m ρ c main_v21 : S100000x64.Idx → Ideal .f32) = Cert.ReferenceIdeal.Read.val_main_v16 (F := Ideal) (m ((c : Thread nD τ).loc main_arg0)) (m ((c : Thread nD τ).loc main_arg1)) (m ((c : Thread nD τ).loc main_arg2)) := by
  show StableHlo.after hostOps0 (W0 m ρ c) (Proc.devRef .tc main_v21) = _
  after_results_simp
  rfl

theorem entry0_cnt (c : Dev nD) :
    (V1 m ρ c main_v8 : S100000x1.Idx → Ideal .f32)
      = broadcastInDim S100000x1 ![0] bcast_S100000_S100000x1_0 (Cert.ReferenceIdeal.Read.val_main_v20 (F := Ideal) (m ((c : Thread nD τ).loc main_arg1))) := by
  show StableHlo.after hostOps0 (W0 m ρ c) (Proc.devRef .tc main_v8) = _
  after_results
  rfl

theorem entry0_bias (c : Dev nD) :
    (V1 m ρ c main_v22 : S1x64.Idx → Ideal .f32) = shapeCast S1x64 (m ((c : Thread nD τ).loc main_arg4)) shapeCasts_S64_S1x64 := by
  show StableHlo.after hostOps0 (W0 m ρ c) (Proc.devRef .tc main_v22) = _
  after_results
  rfl

theorem entry0_arg0 (c : Dev nD) : V1 m ρ c main_arg0 = (m ((c : Thread nD τ).loc main_arg0)) := by
  show StableHlo.after hostOps0 (W0 m ρ c) (Proc.devRef .tc main_arg0) = _
  after_results <;> rfl

theorem entry0_arg3 (c : Dev nD) : V1 m ρ c main_arg3 = (m ((c : Thread nD τ).loc main_arg3)) := by
  show StableHlo.after hostOps0 (W0 m ρ c) (Proc.devRef .tc main_arg3) = _
  after_results <;> rfl

theorem entry0_arg5 (c : Dev nD) : V1 m ρ c main_arg5 = (m ((c : Thread nD τ).loc main_arg5)) := by
  show StableHlo.after hostOps0 (W0 m ρ c) (Proc.devRef .tc main_arg5) = _
  after_results <;> rfl

/-! ## The first region's result -/

/-- The first region leaves `hidden` of the launch arrays in its result array. -/
theorem region0_result (c : Dev nD) :
    W2 m ρ c (Proc.devRef .tc main_v23) = hidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W2_arr m ρ c 6).trans ?_
  rw [final0 (V1 m ρ) c, entry0_agg m ρ c, entry0_cnt m ρ c, entry0_arg0 m ρ c, entry0_arg3 m ρ c, entry0_bias m ρ c,
    entry0_arg5 m ρ c]
  exact hiddenOf_vectors _ _ _ _ _ _

/-! ## What the first region and the first stretch leave for the second stretch to read -/

theorem exit0_src (c : Dev nD) : W2 m ρ c (Proc.devRef .tc main_v1) = Cert.ReferenceIdeal.Read.val_main_v1 (F := Ideal) (m ((c : Thread nD τ).loc main_arg1)) := by
  refine (W2_of_ne m ρ c main_v1 (by decide)).trans ?_
  show StableHlo.after hostOps0 (W0 m ρ c) (Proc.devRef .tc main_v1) = _
  after_results
  rfl

theorem exit0_dst (c : Dev nD) : W2 m ρ c (Proc.devRef .tc main_v3) = Cert.ReferenceIdeal.Read.val_main_v3 (F := Ideal) (m ((c : Thread nD τ).loc main_arg1)) := by
  refine (W2_of_ne m ρ c main_v3 (by decide)).trans ?_
  show StableHlo.after hostOps0 (W0 m ρ c) (Proc.devRef .tc main_v3) = _
  after_results
  rfl

theorem exit0_arg2 (c : Dev nD) : W2 m ρ c (Proc.devRef .tc main_arg2) = (m ((c : Thread nD τ).loc main_arg2)) := by
  refine (W2_of_ne m ρ c main_arg2 (by decide)).trans ?_
  show StableHlo.after hostOps0 (W0 m ρ c) (Proc.devRef .tc main_arg2) = _
  after_results <;> rfl

theorem exit0_arg6 (c : Dev nD) : W2 m ρ c (Proc.devRef .tc main_arg6) = (m ((c : Thread nD τ).loc main_arg6)) := by
  refine (W2_of_ne m ρ c main_arg6 (by decide)).trans ?_
  show StableHlo.after hostOps0 (W0 m ρ c) (Proc.devRef .tc main_arg6) = _
  after_results <;> rfl

theorem exit0_arg7 (c : Dev nD) : W2 m ρ c (Proc.devRef .tc main_arg7) = (m ((c : Thread nD τ).loc main_arg7)) := by
  refine (W2_of_ne m ρ c main_arg7 (by decide)).trans ?_
  show StableHlo.after hostOps0 (W0 m ρ c) (Proc.devRef .tc main_arg7) = _
  after_results <;> rfl

theorem exit0_arg8 (c : Dev nD) : W2 m ρ c (Proc.devRef .tc main_arg8) = (m ((c : Thread nD τ).loc main_arg8)) := by
  refine (W2_of_ne m ρ c main_arg8 (by decide)).trans ?_
  show StableHlo.after hostOps0 (W0 m ρ c) (Proc.devRef .tc main_arg8) = _
  after_results <;> rfl

/-- The first region only reads the count column: it leaves it as it found it. -/
theorem exit0_cnt (c : Dev nD) :
    W2 m ρ c (Proc.devRef .tc main_v8)
      = broadcastInDim S100000x1 ![0] bcast_S100000_S100000x1_0 (Cert.ReferenceIdeal.Read.val_main_v20 (F := Ideal) (m ((c : Thread nD τ).loc main_arg1))) :=
  ((W2_arr m ρ c 1).trans (((dat0 (V1 m ρ) c).arrAt_in 1 rfl _).trans (A_eq0 (V1 m ρ) c 1))).trans (entry0_cnt m ρ c)

/-! ## The second region's entry: what the second stretch of host operations leaves -/

theorem entry1_agg (c : Dev nD) :
    (V3 m ρ c main_v36 : S100000x64.Idx → Ideal .f32)
      = Cert.ReferenceIdeal.Read.val_main_v16 (F := Ideal) (W2 m ρ c (Proc.devRef .tc main_v23)) (m ((c : Thread nD τ).loc main_arg1)) (m ((c : Thread nD τ).loc main_arg2)) := by
  show StableHlo.after hostOps1 (W2 m ρ c) (Proc.devRef .tc main_v36) = _
  after_results_simp
  rw [exit0_src m ρ c, exit0_dst m ρ c, exit0_arg2 m ρ c]
  rfl

theorem entry1_cnt (c : Dev nD) :
    (V3 m ρ c main_v8 : S100000x1.Idx → Ideal .f32)
      = broadcastInDim S100000x1 ![0] bcast_S100000_S100000x1_0 (Cert.ReferenceIdeal.Read.val_main_v20 (F := Ideal) (m ((c : Thread nD τ).loc main_arg1))) := by
  refine Eq.trans ?_ (exit0_cnt m ρ c)
  show StableHlo.after hostOps1 (W2 m ρ c) (Proc.devRef .tc main_v8) = _
  after_results <;> rfl

theorem entry1_hidden (c : Dev nD) : V3 m ρ c main_v23 = W2 m ρ c (Proc.devRef .tc main_v23) := by
  show StableHlo.after hostOps1 (W2 m ρ c) (Proc.devRef .tc main_v23) = _
  after_results <;> rfl

theorem entry1_bias (c : Dev nD) :
    (V3 m ρ c main_v37 : S1x32.Idx → Ideal .f32) = shapeCast S1x32 (m ((c : Thread nD τ).loc main_arg7)) shapeCasts_S32_S1x32 := by
  show StableHlo.after hostOps1 (W2 m ρ c) (Proc.devRef .tc main_v37) = _
  after_results
  rw [exit0_arg7 m ρ c]
  rfl

theorem entry1_arg6 (c : Dev nD) : V3 m ρ c main_arg6 = (m ((c : Thread nD τ).loc main_arg6)) := by
  refine Eq.trans ?_ (exit0_arg6 m ρ c)
  show StableHlo.after hostOps1 (W2 m ρ c) (Proc.devRef .tc main_arg6) = _
  after_results <;> rfl

theorem entry1_arg8 (c : Dev nD) : V3 m ρ c main_arg8 = (m ((c : Thread nD τ).loc main_arg8)) := by
  refine Eq.trans ?_ (exit0_arg8 m ρ c)
  show StableHlo.after hostOps1 (W2 m ρ c) (Proc.devRef .tc main_arg8) = _
  after_results <;> rfl

/-! ## The second region's result: the program's value -/

/-- At the last boundary the result buffer holds `output` of the nine launch arrays. -/
theorem result_value (c : Dev nD) :
    W4 m ρ c (Proc.devRef .tc main_v38)
      = output (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W4_arr m ρ c 6).trans ?_
  rw [final1 (V3 m ρ) c, entry1_agg m ρ c, entry1_cnt m ρ c, entry1_hidden m ρ c, entry1_arg6 m ρ c, entry1_bias m ρ c,
    entry1_arg8 m ρ c, region0_result m ρ c]
  exact outputOf_vectors _ _ _ _ _ _

end Cert.KernelIdeal.Layers

end
-- ==== Proof.lean ====
/-
  Two layers of a mean-aggregating graph convolution over 100000 nodes and 1000000 weighted edges, the kernel
  against its jnp reference, equal over the extended reals.

  Both programs aggregate a feature array along the edges (gather the source rows, scale by the edge weight, add into
  the destination rows) and count the incoming edges with the same host operations; those stay opaque functions of
  the feature array. A layer's entry at node `p`, feature `q` is
      (Σ_k (agg[p,k] / max(cnt[p], 1)) · W_rel[q,k] + Σ_k h[p,k] · W_root[q,k]) + b[q].
  The kernel computes it per block of 2000 nodes in two kernel regions (rounding to the matrix unit's input format
  is the identity on the extended reals, and the matrix unit's product into a zero accumulator is the plain sum),
  adding the bias last; the reference adds the bias before the self term, which is the same number since `+` on the
  extended reals is commutative and associative. Between the layers the kernel applies the logistic function and the
  reference the expression 1 / (1 + exp(−z)), which is that function by definition. Finiteness of the inputs is not
  used.

  Modules: Spec (the entry and its two laws), Target (the value as one function of the nine arguments), RefLayers
  (the reference's run is that function), Payload (what a kernel body stores, at an index), Blocks (from a region's
  blocks to its result array), KernelRun (the kernel program's run with its result named), KernelValue (the buffer
  contents boundary by boundary: the result is the target function).
-/
import proofs.«113769_j72258529788632_1_alg».proof.Defs
import proofs.«113769_j72258529788632_1_alg».proof.Proof.Gen.Kernel
import proofs.«113769_j72258529788632_1_alg».proof.Proof.Gen.Kernel.Skeleton
import proofs.«113769_j72258529788632_1_alg».proof.Proof.Gen.Kernel.Launch
import proofs.«113769_j72258529788632_1_alg».proof.Proof.Gen.Kernel.Points
import proofs.«113769_j72258529788632_1_alg».proof.Proof.Gen.Kernel.Frame
import proofs.«113769_j72258529788632_1_alg».proof.Proof.Gen.KernelIdeal
import proofs.«113769_j72258529788632_1_alg».proof.Proof.Gen.KernelIdeal.Skeleton
import proofs.«113769_j72258529788632_1_alg».proof.Proof.Gen.KernelIdeal.Launch
import proofs.«113769_j72258529788632_1_alg».proof.Proof.Gen.KernelIdeal.Points
import proofs.«113769_j72258529788632_1_alg».proof.Proof.Gen.KernelIdeal.Frame
import proofs.«113769_j72258529788632_1_alg».proof.Proof.Gen.ReferenceIdeal
import proofs.«113769_j72258529788632_1_alg».proof.Proof.Gen.Pre_finite_inputs
import proofs.«113769_j72258529788632_1_alg».proof.Proof.Gen.ReferenceIdeal.Run
import proofs.«113769_j72258529788632_1_alg».proof.Proof.Gen.ReferenceIdeal.Read
import proofs.«113769_j72258529788632_1_alg».proof.Proof.RefLayers
import proofs.«113769_j72258529788632_1_alg».proof.Proof.KernelRun
import proofs.«113769_j72258529788632_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- The idealized kernel program runs and leaves its arguments as launched. -/
theorem frame_kernel_ideal : Cert.frame_KernelIdeal := fun m ρ _ => Cert.KernelIdeal.Gen.frame m ρ

/-- The idealized reference runs and leaves its arguments as launched: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the target function of the arguments in
    their result arrays: the kernel by its two regions' blocks, the reference by its stages read at an index. -/
theorem algebraic : Cert.algebraic_KernelIdeal_ReferenceIdeal := by
  intro m ρ m' ρ' _ hagree
  refine ⟨fun c => Cert.GraphLayers.output (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Layers.result_value m ρ c), (h c).2⟩)
      (Cert.KernelIdeal.Layers.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v73_eq, Cert.GraphLayers.ref_output]
    obtain ⟨e0, e1, e2, e3, e4, e5, e6, e7, e8⟩ := hagree c
    rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
